-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S32x8192 : Shape := ⟨2, ![32, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S8192x8192 .f32) (main_arg1 : FVec F S32x8192 .f32) (main_arg2 : FVec F S32x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S32x8192 .f32 := Host.absf main_arg1
  let main_cst_0 : FVec F S_ .f32 := constant S_ .f32 0x7F800000#32
  let main_v5 : FVec F S32x8192 .f32 := broadcastInDim S32x8192 ![] bcast_S_S32x8192 main_cst_0
  let main_v6 : IVec S32x8192 1 := cmpf .olt main_v4 main_v5
  let main_c_1 : IVec S_ 1 := constantI S_ 1 1#1
  let main_v7 : IVec S_ 1 := (fun x v => Host.reduce IntOp.andi x v reducesTo_S32x8192_S_d0_1 h_S_) main_v6 main_c_1
  let main_v8 : IVec S_ 1 := andi main_v3 main_v7
  let main_v9 : FVec F S32x8192 .f32 := Host.absf main_arg2
  let main_cst_2 : FVec F S_ .f32 := constant S_ .f32 0x7F800000#32
  let main_v10 : FVec F S32x8192 .f32 := broadcastInDim S32x8192 ![] bcast_S_S32x8192 main_cst_2
  let main_v11 : IVec S32x8192 1 := cmpf .olt main_v9 main_v10
  let main_c_3 : IVec S_ 1 := constantI S_ 1 1#1
  let main_v12 : IVec S_ 1 := (fun x v => Host.reduce IntOp.andi x v reducesTo_S32x8192_S_d0_1 h_S_) main_v11 main_c_3
  let main_v13 : IVec S_ 1 := andi main_v8 main_v12
  main_v13
-- ==== Kernel.lean ====
abbrev S8192x8192 : Shape := ⟨2, ![8192, 8192]⟩
abbrev S32x8192 : Shape := ⟨2, ![32, 8192]⟩
abbrev S_ : Shape := ⟨0, ![]⟩
abbrev S1 : Shape := ⟨1, ![1]⟩
abbrev S1024x1024 : Shape := ⟨2, ![1024, 1024]⟩
abbrev S32x1024 : Shape := ⟨2, ![32, 1024]⟩

abbrev nBuf : Space → Nat
  | .hbm => 8
  | .vmem => 8
  | .smem => 1
  | _ => 0

abbrev bufTy : (tb : Table) → Fin (tcTables nBuf tb) → BufTy
  | .hbm, ⟨0, _⟩ => ⟨S8192x8192, .f32⟩
  | .hbm, ⟨1, _⟩ => ⟨S32x8192, .f32⟩
  | .hbm, ⟨2, _⟩ => ⟨S32x8192, .f32⟩
  | .hbm, ⟨3, _⟩ => ⟨S8192x8192, .i1⟩
  | .hbm, ⟨4, _⟩ => ⟨S_, .i1⟩
  | .hbm, ⟨5, _⟩ => ⟨S_, .i1⟩
  | .hbm, ⟨6, _⟩ => ⟨S_, .i32⟩
  | .hbm, ⟨7, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S1024x1024, .f32⟩
  | .local _ .vmem, ⟨7, _⟩ => ⟨S1024x1024, .f32⟩
  | .local _ .smem, ⟨0, _⟩ => ⟨S1, .i32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v4 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x8192_S_d0_1 : S8192x8192.ReducesTo [0, 1] S_
  h_S_ : 0 < S_.numel
  natLt_1_32 : 1 < 32
  shapeCasts_S_S1 : S_.ShapeCasts S1
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1_S1_0 : ∀ a, (![0] : Fin 1 → Nat) a + S1.size a ≤ S1.size a
  numel1_S1 : S1.numel = 1
  dot_S32x1024_S32x1024_S1024x1024_0_0_1_1_n_n_wf : DotDims.WF S32x1024 S32x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x8192.size a
  hwx0_1 : ∀ i : grid0.Coords, EltTy.bits .f32 = 32 ∨ (Rect.block (s := S32x8192) S32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x8192.size a
  hwx0_2 : ∀ i : grid0.Coords, EltTy.bits .f32 = 32 ∨ (Rect.block (s := S32x8192) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S32x1024_S32x1024_S1024x1024_0_0_1_1_n_n : DotDims S32x1024 S32x1024 S1024x1024 where
  lhsContracting := [0]
  rhsContracting := [0]
  lhsNonContracting := [1]
  rhsNonContracting := [1]
  lhsBatch := []
  rhsBatch := []
  wf := dot_S32x1024_S32x1024_S1024x1024_0_0_1_1_n_n_wf

abbrev spec0_0 : Pipeline.WinSpec sig grid0.rank :=
  Pipeline.WinSpec.ofSpec (Memref.whole main_arg0) S1024x1024.size reads0_0 false false 2 stage0_0 sem0_0 nbuf0_0 hstage0_0

abbrev spec0_1 : Pipeline.WinSpec sig grid0.rank :=
  Pipeline.WinSpec.ofSpec (Memref.whole main_arg2) S32x1024.size reads0_1 false false 2 stage0_1 sem0_1 nbuf0_1 hstage0_1

abbrev spec0_2 : Pipeline.WinSpec sig grid0.rank :=
  Pipeline.WinSpec.ofSpec (Memref.whole main_arg1) S32x1024.size reads0_2 false false 2 stage0_2 sem0_2 nbuf0_2 hstage0_2

abbrev spec0_3 : Pipeline.WinSpec sig grid0.rank :=
  Pipeline.WinSpec.ofSpec (Memref.whole main_v4) S1024x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8192x8192 : Shape := ⟨2, ![8192, 8192]⟩
abbrev S32x8192 : Shape := ⟨2, ![32, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S32x8192, .f32⟩
  | .hbm, ⟨2, _⟩ => ⟨S32x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .i1⟩
  | .hbm, ⟨20, _⟩ => ⟨S_, .i1⟩
  | .hbm, ⟨21, _⟩ => ⟨S_, .i1⟩
  | .hbm, ⟨22, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S32x8192_S32x8192_S8192x8192_0_0_1_1_n_n_wf : DotDims.WF S32x8192 S32x8192 S8192x8192 [0] [0] [1] [1] [] []

variable [Facts₀]

def dot_S32x8192_S32x8192_S8192x8192_0_0_1_1_n_n : DotDims S32x8192 S32x8192 S8192x8192 where
  lhsContracting := [0]
  rhsContracting := [0]
  lhsNonContracting := [1]
  rhsNonContracting := [1]
  lhsBatch := []
  rhsBatch := []
  wf := dot_S32x8192_S32x8192_S8192x8192_0_0_1_1_n_n_wf

class Facts : Prop extends Facts₀ where

variable [Facts]
-- ==== Proof.Payload.lean ====
/-
  What the kernel body computes for one 1024×1024 tile, read at an entry, on the extended reals.

  The body loads a 32×1024 tile `a` of `post`, a 32×1024 tile `b` of `pre` and the 1024×1024 tile `x` of the
  weights, and reads one integer word `v`.  Rounding to bf16 is the identity here, so the matrix product into the
  zero accumulator, contracted along the batch axis of both tiles, has the entry `Σ_k a[k,p] · b[k,q]` at
  `(p, q)`; the tile stored back is, entry by entry, `x[p,q]` when `v ≠ 0` and otherwise
  `min 1 (max 0 (x[p,q] + c₃₂ · Σ_k a[k,p] · b[k,q]))`.
-/
import proofs.«134060_j17274358464692_1_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The tile product's dimension numbers: both operands contracted along axis 0. -/
abbrev D : DotDims S32x1024 S32x1024 S1024x1024 := dot_S32x1024_S32x1024_S1024x1024_0_0_1_1_n_n

/-- The left operand's index: its batch coordinate is the contraction index, its column the output row. -/
theorem lhs_batch (i : S1024x1024.Idx) (r : D.contr.Idx) : (D.lhsIdx i r 0).val = (r ⟨0, by decide⟩).val :=
  D.lhsIdx_val_of_single rfl i r
theorem lhs_col (i : S1024x1024.Idx) (r : D.contr.Idx) : (D.lhsIdx i r 1).val = (i 0).val := by
  unfold DotDims.lhsIdx
  rw [dif_neg (show ¬(1 : Fin S32x1024.rank) ∈ D.lhsBatch by decide), dif_pos (show (1 : Fin S32x1024.rank) ∈ D.lhsNonContracting by decide)]
  rfl
/-- The right operand's index: its batch coordinate is the contraction index, its column the output column. -/
theorem rhs_batch (i : S1024x1024.Idx) (r : D.contr.Idx) : (D.rhsIdx i r 0).val = (r ⟨0, by decide⟩).val :=
  D.rhsIdx_val_of_single rfl i r
theorem rhs_col (i : S1024x1024.Idx) (r : D.contr.Idx) : (D.rhsIdx i r 1).val = (i 1).val := by
  unfold DotDims.rhsIdx
  rw [dif_neg (show ¬(1 : Fin S32x1024.rank) ∈ D.rhsBatch by decide), dif_pos (show (1 : Fin S32x1024.rank) ∈ D.rhsNonContracting by decide)]
  rfl

/-- The left operand is read at (contraction index, output row). -/
theorem lhs_at (p q : Fin 1024) (k : Fin 32) :
    D.lhsIdx (ix2 p q) ((contrEquiv1 D 32 rfl rfl).symm k) = ix2 k p :=
  funext fun a => Fin.ext (by
    match a with
    | ⟨0, _⟩ => exact (lhs_batch _ _).trans (contrEquiv1_symm_val D 32 rfl rfl k)
    | ⟨1, _⟩ => exact lhs_col _ _)

/-- The right operand is read at (contraction index, output column). -/
theorem rhs_at (p q : Fin 1024) (k : Fin 32) :
    D.rhsIdx (ix2 p q) ((contrEquiv1 D 32 rfl rfl).symm k) = ix2 k q :=
  funext fun a => Fin.ext (by
    match a with
    | ⟨0, _⟩ => exact (rhs_batch _ _).trans (contrEquiv1_symm_val D 32 rfl rfl k)
    | ⟨1, _⟩ => exact rhs_col _ _)

/-- The product of two tiles into the zero accumulator, at entry `(p, q)`: the sum over the batch. -/
theorem tile_product (a b : FVec Ideal S32x1024 .bf16) (p q : Fin 1024) :
    matmul D none a b (constant (F := Ideal) S1024x1024 .f32 0x00000000#32) (ix2 p q)
      = ∑ k : Fin 32, a (ix2 k p) * b (ix2 k q) := by
  simp only [matmul]
  rw [Ideal.matmul_constant_zero_apply, ← Equiv.sum_comp (contrEquiv1 D 32 rfl rfl).symm]
  refine Finset.sum_congr rfl fun k _ => ?_
  rw [lhs_at, rhs_at]

/-- The stored tile at entry `(p, q)`. -/
theorem pay_apply (a b : Vec Ideal S32x1024 .f32) (x : Vec Ideal S1024x1024 .f32) (v : BitVec 32) (p q : Fin 1024) :
    k0_pay1 (F := Ideal) a b x v (ix2 p q)
      = Scalar.select (Scalar.cmpi .ne v 0#32) (x (ix2 p q))
          (min (Ideal.ofBits .f32 0x3F800000#32) (max (Ideal.ofBits .f32 0x00000000#32)
            (x (ix2 p q) + Ideal.ofBits .f32 0x39A3D70A#32 * ∑ k : Fin 32, a (ix2 k p) * b (ix2 k q)))) := by
  unfold k0_pay1
  rcases BitVec.eq_zero_or_eq_one (Scalar.cmpi .ne v 0#32) with h | h
  · rw [h, select_zero, select_zero]
    show min _ (max _ (x (ix2 p q) + _ * matmul (F := Ideal) D none _ _ _ (ix2 p q))) = _
    rw [tile_product]
    rfl
  · rw [h, select_one, select_one]

end Cert.KernelIdeal.Payload

end
-- ==== Proof.Spec.lean ====
/-
  The weight update as ONE function of the three argument arrays, index by index, on the extended reals.

  With `w` the 8192×8192 weights, `pre` and `post` the 32×8192 activities and `n` the one-bit answer to
  "does `w` hold a NaN", the entry at row `o` and column `i` is

      w[o,i]                                                         if n = 1
      min 1 (max 0 (w[o,i] + c₃₂ · Σ_b post[b,o] · pre[b,i]))        otherwise,

  `c₃₂` the kernel's folded rate (Scale.lean).  The sum over the batch of 32 is the correlation of output
  unit `o` with input unit `i`.
-/
import Idealize.ShloMosaic.PureOps.Ideal
import Idealize.ShloMosaic.Lib.ValueIdx

noncomputable section

namespace Cert.Stdp

open Idealize.ShloMosaic Idealize.ShloMosaic.ValueIdx

/-- The weights' shape and the activities' shape. -/
abbrev Weights : Shape := ⟨2, ![8192, 8192]⟩
abbrev Activity : Shape := ⟨2, ![32, 8192]⟩

/-- The shape with no axis: one entry. -/
abbrev NoAxes : Shape := ⟨0, ![]⟩

/-- The flag: the fold by `or`, over all of `w`, of the entrywise test "this entry differs from itself". -/
def nanFlag (w : Weights.Idx → EReal) (h : Weights.ReducesTo [0, 1] NoAxes) (hu : 0 < NoAxes.numel) : BitVec 1 :=
  Host.reduce IntOp.ori (cmpf (F := Ideal) (φ := .f32) .une w w) (constantI NoAxes 1 0#1) h hu ix0

/-- The batch correlation of output unit `o` with input unit `i`. -/
def corr (pre post : Activity.Idx → EReal) (o i : Fin 8192) : EReal :=
  ∑ b : Fin 32, post (ix2 b o) * pre (ix2 b i)

/-- The updated weight at `(o, i)`: the old weight plus the scaled correlation, clamped to `[0, 1]`; the old
    weight itself when the flag `n` is set. -/
def updatedAt (n : BitVec 1) (w : Weights.Idx → EReal) (pre post : Activity.Idx → EReal) (o i : Fin 8192) : EReal :=
  Scalar.select n (w (ix2 o i))
    (min (Ideal.ofBits .f32 0x3F800000#32)
      (max (Ideal.ofBits .f32 0x00000000#32)
        (w (ix2 o i) + Ideal.ofBits .f32 0x39A3D70A#32 * corr pre post o i)))

/-- The updated weights as an array. -/
def updated (n : BitVec 1) (w : Weights.Idx → EReal) (pre post : Activity.Idx → EReal) : Weights.Idx → EReal :=
  fun j => updatedAt n w pre post (j 0) (j 1)

theorem updated_apply (n : BitVec 1) (w : Weights.Idx → EReal) (pre post : Activity.Idx → EReal) (o i : Fin 8192) :
    updated n w pre post (ix2 o i) = updatedAt n w pre post o i := rfl

end Cert.Stdp

end
-- ==== Proof.KernelValue.lean ====
/-
  What the kernel leaves in the result array: the weight update of Spec.lean.

  The grid has 8 × 8 points; point `t` has coordinates `(t / 8, t % 8)` and works on the 1024×1024 tile of the
  weights at block row `t / 8` and block column `t % 8`, with the 32×1024 tile of `post` at block column `t / 8`
  and the 32×1024 tile of `pre` at block column `t % 8`.  So entry `(p, q)` of the tile is entry
  `(1024 · (t / 8) + p, 1024 · (t % 8) + q)` of the weights, row `k` of the `post` tile at column `p` is
  `post[k, 1024 · (t / 8) + p]`, and row `k` of the `pre` tile at column `q` is `pre[k, 1024 · (t % 8) + q]`: the
  tile's correlation sum is the whole arrays' correlation of output unit `1024 · (t / 8) + p` with input unit
  `1024 · (t % 8) + q`.  The one integer word every point reads is the flag widened to 32 bits, and "that word
  is not zero" is the flag.  Every point writes its tile back and the 64 tiles cover the array (entry `(o, i)` is
  in the tile of point `8 · (o / 1024) + i / 1024`), so the array ends holding the updated weights.
-/
import proofs.«134060_j17274358464692_1_alg».proof.Proof.Gen.KernelIdeal.Frame
import proofs.«134060_j17274358464692_1_alg».proof.Proof.Payload
import proofs.«134060_j17274358464692_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.TileValue

open Cert.KernelIdeal Cert.KernelIdeal.Gen Idealize.ShloMosaic.ValueIdx

/-! ## One point: the staging buffer ends at the body's stored tile -/

section AnyValues
variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- The body's one store covers the output tile, so what the tile's staging buffer holds after the body is the stored
    value: the body's arithmetic on the three loaded tiles and on the table's one word. -/
theorem stored_tile (c : Dev nD) (i : grid0.Coords) (a3 : Memref sig .tc .vmem S1024x1024 .f32) (h3 : a3.IsWhole)
    (a4 : Memref sig .tc .vmem S32x1024 .f32) (h4 : a4.IsWhole) (a5 : Memref sig .tc .vmem S32x1024 .f32) (h5 : a5.IsWhole)
    (a6 : Memref sig .tc .vmem S1024x1024 .f32) (h6 : a6.IsWhole)
    (x0 : Vec F S1024x1024 .f32) (x1 : Vec F S32x1024 .f32) (x2 : Vec F S32x1024 .f32) (xt0 : TbBuf0 (F := F) c tbM0_0) :
    out0_A_3 c i a3 h3 a4 h4 a5 h5 a6 h6 x0 x1 x2 xt0 = k0_pay1 x1 x2 x0 (xt0 (Shape.Idx.first numel1_S1.symm.le)) := by
  unfold out0_A_3
  rw [View.read_writes_eq_canon _ _ _ (cover0_A_3 c i a3 h3 a4 h4 a5 h5 a6 h6 x0 x1 x2 xt0)]
  unfold kernelRun0_A
  dsimp only
  sl_unfold_words
  rw [View.canon_unit_zero hz]
  simp only [View.readAt_eq_ld, h3.read_unread, h4.read_unread, h5.read_unread, View.ld_unit_zero (S := S1024x1024) hz,
    View.ld_unit_zero (S := S32x1024) hz, View.read_whole]
  refine congrArg (k0_pay1 x1 x2 x0) ?_
  exact congrFun (View.ld_unit_zero (S := S1) hz1 inb_S1_S1_0 _) _

/-- The prefetched table as the region finds it: the flag's bit widened to a 32-bit word, as a one-entry array. -/
theorem table_eq (m : (ℓ : Loc nD τ sig) → Buf (Elt F) ℓ) :
    (tbl m 0 : S1.Idx → BitVec 32)
      = shapeCast S1 (extui 32 (Host.reduce IntOp.ori
          (cmpf .une (m (((0 : Dev nD).tc : Thread nD τ).loc main_arg0)) (m (((0 : Dev nD).tc : Thread nD τ).loc main_arg0)))
          (constantI S_ 1 0#1) reducesTo_S8192x8192_S_d0_1 h_S_) natLt_1_32) shapeCasts_S_S1 := by
  unfold tbl
  show V m 0 main_v3 = _
  dsimp only [V, hostOps0]
  after_results
  rfl

/-- A bit widened to 32 bits differs from zero exactly when it is set. -/
theorem ne_zero_widen (b : BitVec 1) : Scalar.cmpi .ne (b.setWidth 32) 0#32 = b := by
  rcases BitVec.eq_zero_or_eq_one b with h | h <;> subst h <;> decide

/-- The one-entry array holding a bit widened to a word: "its entry is not zero" is the bit. -/
theorem widened_ne_zero (R : S_.Idx → BitVec 1) (i : S1.Idx) :
    Scalar.cmpi .ne (shapeCast S1 (extui 32 R natLt_1_32) shapeCasts_S_S1 i) 0#32 = R ValueIdx.ix0 := by
  show Scalar.cmpi .ne ((R (Shape.reshapeEquiv shapeCasts_S_S1 i)).setWidth 32) 0#32 = _
  rw [ne_zero_widen, eq_ix0 (Shape.reshapeEquiv shapeCasts_S_S1 i)]

end AnyValues

/-! ## At the extended reals -/

variable (m : (ℓ : Loc nD τ sig) → Buf (Elt Ideal) ℓ) (ρ : Dev nD → PrngReg)

/-- The flag of the weights the program was launched with (there is one device). -/
abbrev flag : BitVec 1 :=
  Cert.Stdp.nanFlag (m (((0 : Dev nD).tc : Thread nD τ).loc main_arg0)) reducesTo_S8192x8192_S_d0_1 h_S_

/-- "The table's word is not zero" is the flag. -/
theorem word_ne_zero (i : S1.Idx) : Scalar.cmpi .ne (tbl m 0 i) 0#32 = flag m := by
  rw [table_eq]
  exact (widened_ne_zero _ i).trans rfl

/-- The printed index maps at a point, in closed form: decided over the 64 points, at any admissible table. -/
theorem idx_facts (a : (pcfg0 (F := Ideal)).Adm) : ∀ t : Fin (cfg0 a).N,
    ((cfg0 a).win 0).index t (0 : Fin 2) = t.val / 8 ∧ ((cfg0 a).win 0).index t (1 : Fin 2) = t.val % 8
    ∧ ((cfg0 a).win 1).index t (0 : Fin 2) = 0 ∧ ((cfg0 a).win 1).index t (1 : Fin 2) = t.val / 8
    ∧ ((cfg0 a).win 2).index t (0 : Fin 2) = 0 ∧ ((cfg0 a).win 2).index t (1 : Fin 2) = t.val % 8
    ∧ ((cfg0 a).win 3).index t (0 : Fin 2) = t.val / 8 ∧ ((cfg0 a).win 3).index t (1 : Fin 2) = t.val % 8 :=
  (by decide +kernel : ∀ t : Fin grid0.N,
    cc0_transform_0 (grid0.coords t) (0 : Fin 2) = t.val / 8 ∧ cc0_transform_0 (grid0.coords t) (1 : Fin 2) = t.val % 8
    ∧ cc0_transform_1 (grid0.coords t) (0 : Fin 2) = 0 ∧ cc0_transform_1 (grid0.coords t) (1 : Fin 2) = t.val / 8
    ∧ cc0_transform_2 (grid0.coords t) (0 : Fin 2) = 0 ∧ cc0_transform_2 (grid0.coords t) (1 : Fin 2) = t.val % 8
    ∧ cc0_transform_3 (grid0.coords t) (0 : Fin 2) = t.val / 8 ∧ cc0_transform_3 (grid0.coords t) (1 : Fin 2) = t.val % 8)

end Cert.KernelIdeal.TileValue

end
-- ==== Proof.KernelArray.lean ====
/-
  From tiles to the array: the kernel's run ends with the result array at the updated weights.

  Point `t` of the 8 × 8 grid writes back the tile at block row `t / 8`, block column `t % 8`; that tile, entry by
  entry, is the update of Spec.lean at the whole arrays' entry `(1024 · (t / 8) + p, 1024 · (t % 8) + q)`
  (the three loaded tiles are the whole arrays read at those rows and columns).  Entry `(o, i)` of the array lies in
  the tile of point `8 · (o / 1024) + i / 1024`, so the tiles cover the array.
-/
import proofs.«134060_j17274358464692_1_alg».proof.Proof.KernelValue

noncomputable section

open Idealize.ShloMosaic Idealize.ShloMosaic.TcCoe Idealize.SL.Sem Idealize.ShloMosaic.StableHlo
open Idealize.ShloMosaic.Pipeline (Dat)

namespace Cert.KernelIdeal.TileValue

open Cert.KernelIdeal Cert.KernelIdeal.Gen Idealize.ShloMosaic.ValueIdx

variable (m : (ℓ : Loc nD τ sig) → Buf (Elt Ideal) ℓ) (ρ : Dev nD → PrngReg)

/-! ## The loaded tiles are the arrays read at the tile's rows and columns -/

set_option backward.isDefEq.respectTransparency.types false in
/-- The weights tile of point `t` at `(p, q)` is the weights at `(1024 · (t / 8) + p, 1024 · (t % 8) + q)`. -/
theorem weights_tile (hO : Ok m) (c : Dev nD) (t : Fin (cfgM m hO).N) (p q : Fin 1024) (o i : Fin 8192)
    (ho : o.val = t.val / 8 * 1024 + p.val) (hi : i.val = t.val % 8 * 1024 + q.val) :
    iblk m hO c 0 t (ix2 p q) = V m c main_arg0 (ix2 o i) := by
  obtain ⟨e0, e1, -⟩ := idx_facts (adm m hO) t
  unfold iblk
  rw [View.read_apply]
  refine congrArg (V m c main_arg0) ?_
  funext a
  apply Fin.ext
  match a with
  | ⟨0, _⟩ => show ((cfgM m hO).win 0).index t (0 : Fin 2) * 1024 + 1 * p.val = o.val; rw [e0, ho]; omega
  | ⟨1, _⟩ => show ((cfgM m hO).win 0).index t (1 : Fin 2) * 1024 + 1 * q.val = i.val; rw [e1, hi]; omega

set_option backward.isDefEq.respectTransparency.types false in
/-- The `post` tile of point `t` at `(k, p)` is `post` at `(k, 1024 · (t / 8) + p)`. -/
theorem post_tile (hO : Ok m) (c : Dev nD) (t : Fin (cfgM m hO).N) (k : Fin 32) (p : Fin 1024) (o : Fin 8192)
    (ho : o.val = t.val / 8 * 1024 + p.val) :
    iblk m hO c 1 t (ix2 k p) = V m c main_arg2 (ix2 k o) := by
  obtain ⟨-, -, e2, e3, -⟩ := idx_facts (adm m hO) t
  unfold iblk
  rw [View.read_apply]
  refine congrArg (V m c main_arg2) ?_
  funext a
  apply Fin.ext
  match a with
  | ⟨0, _⟩ => show ((cfgM m hO).win 1).index t (0 : Fin 2) * 32 + 1 * k.val = k.val; rw [e2]; omega
  | ⟨1, _⟩ => show ((cfgM m hO).win 1).index t (1 : Fin 2) * 1024 + 1 * p.val = o.val; rw [e3, ho]; omega

set_option backward.isDefEq.respectTransparency.types false in
/-- The `pre` tile of point `t` at `(k, q)` is `pre` at `(k, 1024 · (t % 8) + q)`. -/
theorem pre_tile (hO : Ok m) (c : Dev nD) (t : Fin (cfgM m hO).N) (k : Fin 32) (q : Fin 1024) (i : Fin 8192)
    (hi : i.val = t.val % 8 * 1024 + q.val) :
    iblk m hO c 2 t (ix2 k q) = V m c main_arg1 (ix2 k i) := by
  obtain ⟨-, -, -, -, e4, e5, -⟩ := idx_facts (adm m hO) t
  unfold iblk
  rw [View.read_apply]
  refine congrArg (V m c main_arg1) ?_
  funext a
  apply Fin.ext
  match a with
  | ⟨0, _⟩ => show ((cfgM m hO).win 2).index t (0 : Fin 2) * 32 + 1 * k.val = k.val; rw [e4]; omega
  | ⟨1, _⟩ => show ((cfgM m hO).win 2).index t (1 : Fin 2) * 1024 + 1 * q.val = i.val; rw [e5, hi]; omega

/-! ## What a point writes back -/

/-- The updated weights of the arrays as the region finds them. -/
abbrev target (c : Dev nD) : S8192x8192.Idx → EReal :=
  Cert.Stdp.updated (flag m) (V m c main_arg0) (V m c main_arg1) (V m c main_arg2)

/-- The output window is not clipped: a tile read through its cut is the tile. -/
theorem cut_tile (hO : Ok m) (t : Fin (cfgM m hO).N) (X : Vec Ideal S1024x1024 .f32) (y : S1024x1024.Idx) :
    ((cfgM m hO).win 3).cut (grid0.coords t) X y = X y := rfl

set_option backward.isDefEq.respectTransparency.types false in
/-- Tile `t` of an array of the result's shape, at `(p, q)`, is the array at `(1024 · (t / 8) + p, 1024 · (t % 8) + q)`. -/
theorem result_tile (hO : Ok m) (c : Dev nD) (t : Fin (cfgM m hO).N) (G : S8192x8192.Idx → EReal) (p q : Fin 1024)
    (o i : Fin 8192) (ho : o.val = t.val / 8 * 1024 + p.val) (hi : i.val = t.val % 8 * 1024 + q.val) :
    (((cfgM m hO).win 3).blk t).view.read (Elt Ideal) G (ix2 p q) = G (ix2 o i) := by
  obtain ⟨-, -, -, -, -, -, e6, e7⟩ := idx_facts (adm m hO) t
  rw [View.read_apply]
  refine congrArg G ?_
  funext a
  apply Fin.ext
  match a with
  | ⟨0, _⟩ => show ((cfgM m hO).win 3).index t (0 : Fin 2) * 1024 + 1 * p.val = o.val; rw [e6, ho]; omega
  | ⟨1, _⟩ => show ((cfgM m hO).win 3).index t (1 : Fin 2) * 1024 + 1 * q.val = i.val; rw [e7, hi]; omega

set_option backward.isDefEq.respectTransparency.types false in
/-- Point `t` writes back tile `t` of the updated weights. -/
theorem flushed_eq (hO : Ok m) (c : Dev nD) (t : Fin (cfgM m hO).N) :
    (dats m hO 0 c).flushed 3 t = (((cfgM m hO).win 3).blk t).view.read (Elt Ideal) (target m c) := by
  show ((cfgM m hO).win 3).cut (grid0.coords t) ((dats m hO 0 c).after 3 t) = _
  rw [after0_3]
  unfold outsAt0
  rw [stored_tile]
  funext (y : S1024x1024.Idx)
  obtain ⟨p, q, rfl⟩ : ∃ (p q : Fin 1024), y = ix2 p q := ⟨y 0, y 1, eq_ix2 y⟩
  have hN : t.val < 64 := t.isLt
  have ho : t.val / 8 * 1024 + p.val < 8192 := by omega
  have hi : t.val % 8 * 1024 + q.val < 8192 := by omega
  refine (cut_tile m hO t _ (ix2 p q)).trans ?_
  refine Eq.trans ?_ (result_tile m hO c t (target m c) p q ⟨_, ho⟩ ⟨_, hi⟩ rfl rfl).symm
  show _ = Cert.Stdp.updatedAt (flag m) (V m c main_arg0) (V m c main_arg1) (V m c main_arg2) ⟨_, ho⟩ ⟨_, hi⟩
  refine (Payload.pay_apply (iblk m hO c 1 t) (iblk m hO c 2 t) (iblk m hO c 0 t)
    (tbl m 0 (Shape.Idx.first numel1_S1.symm.le)) p q).trans ?_
  unfold Cert.Stdp.updatedAt Cert.Stdp.corr
  rw [word_ne_zero, weights_tile m hO c t p q ⟨_, ho⟩ ⟨_, hi⟩ rfl rfl]
  simp only [post_tile m hO c t _ p ⟨_, ho⟩ rfl, pre_tile m hO c t _ q ⟨_, hi⟩ rfl]

/-! ## The tiles cover the array -/

set_option backward.isDefEq.respectTransparency.types false in
/-- An entry whose coordinates are in the ranges of point `t`'s tile is in that tile. -/
theorem mem_tile (hO : Ok m) (t : Fin (cfgM m hO).N) (j : S8192x8192.Idx)
    (h : ∀ a : Fin 2, ((cfgM m hO).win 3).index t a * S1024x1024.size a ≤ (j a).val
      ∧ (j a).val < ((cfgM m hO).win 3).index t a * S1024x1024.size a + S1024x1024.size a) :
    j ∈ (((cfgM m hO).win 3).blk t).view.set := by
  show j ∈ ((View.whole main_v4).slice (((cfgM m hO).win 3).rect t)).set
  rw [View.set_slice_whole]
  exact Rect.mem_set_unit.mpr h

set_option backward.isDefEq.respectTransparency.types false in
/-- The result array after the run holds the updated weights. -/
theorem final (hO : Ok m) (c : Dev nD) : (dats m hO 0 c).arrAt 3 (cfgM m hO).N = target m c :=
  (dats m hO 0 c).arrAt_eq_of_cover 3 (target m c) (fun t _ => flushed_eq m hO c t) fun (j : S8192x8192.Idx) => by
    have h0 : (j 0).val < 8192 := (j 0).isLt
    have h1 : (j 1).val < 8192 := (j 1).isLt
    have ht : (j 0).val / 1024 * 8 + (j 1).val / 1024 < (cfgM m hO).N := by
      show _ < grid0.N
      rw [N_0]
      omega
    refine ⟨⟨(j 0).val / 1024 * 8 + (j 1).val / 1024, ht⟩, flush0_3 (adm m hO) _, mem_tile m hO _ j ?_⟩
    obtain ⟨-, -, -, -, -, -, e6, e7⟩ := idx_facts (adm m hO) ⟨(j 0).val / 1024 * 8 + (j 1).val / 1024, ht⟩
    intro a
    match a with
    | ⟨0, _⟩ =>
      show ((cfgM m hO).win 3).index _ (0 : Fin 2) * 1024 ≤ (j 0).val ∧ (j 0).val < ((cfgM m hO).win 3).index _ (0 : Fin 2) * 1024 + 1024
      rw [e6]
      show ((j 0).val / 1024 * 8 + (j 1).val / 1024) / 8 * 1024 ≤ (j 0).val ∧ (j 0).val < ((j 0).val / 1024 * 8 + (j 1).val / 1024) / 8 * 1024 + 1024
      omega
    | ⟨1, _⟩ =>
      show ((cfgM m hO).win 3).index _ (1 : Fin 2) * 1024 ≤ (j 1).val ∧ (j 1).val < ((cfgM m hO).win 3).index _ (1 : Fin 2) * 1024 + 1024
      rw [e7]
      show ((j 0).val / 1024 * 8 + (j 1).val / 1024) % 8 * 1024 ≤ (j 1).val ∧ (j 1).val < ((j 0).val / 1024 * 8 + (j 1).val / 1024) % 8 * 1024 + 1024
      omega

/-! ## The run -/

/-- Every weakly fair execution of the kernel's program terminates with the result array at the updated weights of
    the launch arrays, and the three arguments as launched. -/
theorem run (hO : Ok m) : θ_run defs (onTc (τ := τ) (main (F := Ideal))) ⟨m, fun _ => 0, ρ⟩ fun r => ∀ c : Dev nD,
      r.2.mem ((c.tc : Thread nD τ).loc main_v4)
        = Cert.Stdp.updated (flag m) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans ((final m hO c).trans (by
        show Cert.Stdp.updated (flag m) (V m c main_arg0) (V m c main_arg1) (V m c main_arg2) = _
        rw [V_main_arg0, V_main_arg1, V_main_arg2])),
      ((h c).1 0).trans (((dats m hO 0 c).arrAt_in 0 rfl _).trans ((A_eq m hO c 0).trans (V_main_arg0 m c))),
      ((h c).1 2).trans (((dats m hO 0 c).arrAt_in 2 rfl _).trans ((A_eq m hO c 2).trans (V_main_arg1 m c))),
      ((h c).1 1).trans (((dats m hO 0 c).arrAt_in 1 rfl _).trans ((A_eq m hO c 1).trans (V_main_arg2 m c)))⟩)
    (run_main m ρ hO)

end Cert.KernelIdeal.TileValue

end
-- ==== Proof.Scale.lean ====
/-
  The two learning-rate constants.  The kernel multiplies the batch correlation by ONE folded literal, the
  single-precision word of `0.01 / 32`; the reference divides the correlation by `32` and then multiplies by
  the single-precision word of `0.01`.  Both words have the same significand `10737418` and exponents five
  apart, so the first is exactly the second divided by `32`: as extended reals `c₃₂ · d = c · (d / 32)` for
  every `d`, infinite ones included (only commutativity and associativity of the product are used).
-/
import Idealize.ShloMosaic.PureOps.Ideal

noncomputable section

namespace Cert.Stdp

open Idealize.ShloMosaic

/-- The word `0x42000000` denotes `32`. -/
theorem ofBits_batch : Ideal.ofBits .f32 0x42000000#32 = ((32 : ℝ) : EReal) := by
  simp [Ideal.ofBits, Ideal.ieee, -EReal.coe_mul]; norm_num

/-- The reference's learning rate, the word `0x3C23D70A`, denotes `10737418 · 2⁻³⁰`. -/
theorem ofBits_rate : Ideal.ofBits .f32 0x3C23D70A#32 = ((10737418 / 2 ^ 30 : ℝ) : EReal) := by
  simp [Ideal.ofBits, Ideal.ieee, -EReal.coe_mul]; norm_num

/-- The kernel's folded rate, the word `0x39A3D70A`, denotes `10737418 · 2⁻³⁵`. -/
theorem ofBits_rate_over_batch : Ideal.ofBits .f32 0x39A3D70A#32 = ((10737418 / 2 ^ 35 : ℝ) : EReal) := by
  simp [Ideal.ofBits, Ideal.ieee, -EReal.coe_mul]; norm_num

/-- Scaling by the folded rate is dividing by the batch size and then scaling by the rate, on every extended real. -/
theorem rate_fold (d : EReal) :
    Ideal.ofBits .f32 0x39A3D70A#32 * d
      = Ideal.ofBits .f32 0x3C23D70A#32 * Ideal.div d (Ideal.ofBits .f32 0x42000000#32) := by
  rw [ofBits_batch, ofBits_rate, ofBits_rate_over_batch, Ideal.div_coe (by norm_num : (32 : ℝ) ≠ 0),
    mul_comm d, ← mul_assoc, ← EReal.coe_mul]
  congr 2
  norm_num

end Cert.Stdp

end
-- ==== Proof.RefValue.lean ====
/-
  The reference computes the weight update of Spec.lean.

  Its program is, entry by entry: the batch correlation `Σ_b post[b,o] · pre[b,i]` (a product of the two activity
  arrays contracted along the batch axis), divided by `32`, scaled by the rate `c`, added to the old weight, clamped
  to `[0, 1]`; and the old weight itself when the flag is set.  Dividing by `32` and then scaling by `c` is scaling
  by the folded rate `c₃₂` (Scale.lean), so this is `Stdp.updated` at the same flag.
-/
import proofs.«134060_j17274358464692_1_alg».proof.Proof.RefReadPatched
import proofs.«134060_j17274358464692_1_alg».proof.Proof.Spec
import proofs.«134060_j17274358464692_1_alg».proof.Proof.Scale

noncomputable section

namespace Cert.ReferenceIdeal.RefValue

open Cert.ReferenceIdeal Cert.ReferenceIdeal.Gen Cert.ReferenceIdeal.ReadP Idealize.ShloMosaic Idealize.ShloMosaic.ValueIdx

/-- The product's left factor is read at (batch index, output unit), its right factor at (batch index, input unit). -/
theorem lidx_eq (o i : Fin 8192) (k : Fin 32) : lidx_main_v0 (ix2 o i) k = ix2 k o :=
  funext fun a => by match a with | ⟨0, _⟩ => rfl | ⟨1, _⟩ => rfl
theorem ridx_eq (o i : Fin 8192) (k : Fin 32) : ridx_main_v0 (ix2 o i) k = ix2 k i :=
  funext fun a => by match a with | ⟨0, _⟩ => rfl | ⟨1, _⟩ => rfl

/-- The flag the reference selects on, broadcast to every entry, is the flag of the weights. -/
theorem flag_eq (w : S8192x8192.Idx → EReal) (j : S8192x8192.Idx) :
    broadcastInDim S8192x8192 ![] bcast_S_S8192x8192 (val_main_v8 (F := Ideal) w) j
      = Cert.Stdp.nanFlag w reducesTo_S8192x8192_S_d0_1 h_S_ := by
  rw [broadcastInDim_apply _ bcast_S_S8192x8192 (val_main_v8 (F := Ideal) w) j ix0 (fun a => a.elim0)]
  rfl

/-- The reference's result is the updated weights. -/
theorem result_eq (w : S8192x8192.Idx → EReal) (pre post : S32x8192.Idx → EReal) :
    val_main_v9 (F := Ideal) w pre post
      = Cert.Stdp.updated (Cert.Stdp.nanFlag w reducesTo_S8192x8192_S_d0_1 h_S_) w pre post := by
  funext j
  obtain ⟨o, i, rfl⟩ : ∃ (o i : Fin 8192), j = ix2 o i := ⟨j 0, j 1, eq_ix2 j⟩
  rw [Cert.Stdp.updated_apply]
  unfold val_main_v9 Cert.Stdp.updatedAt
  rw [select_apply, flag_eq]
  refine congrArg (Scalar.select _ (w (ix2 o i))) ?_
  rw [val_main_v6_apply, val_main_call0_v4_apply, val_main_call0_v3_apply, val_main_cst_2_apply, val_main_call0_v2_apply,
    val_main_call0_v1_apply, val_main_call0_v0_apply, val_main_cst_1_apply, val_main_v5_apply, val_main_v4_apply,
    val_main_v3_apply, val_main_cst_0_apply, val_main_v2_apply, val_main_v1_apply, val_main_cst_apply, val_main_v0_apply]
  show min (Ideal.ofBits .f32 0x3F800000#32) (max (Ideal.ofBits .f32 0x00000000#32)
    (w (ix2 o i) + Ideal.ofBits .f32 0x3C23D70A#32 * Ideal.div (∑ k : Fin 32, post (lidx_main_v0 (ix2 o i) k) * pre (ridx_main_v0 (ix2 o i) k)) (Ideal.ofBits .f32 0x42000000#32))) = _
  rw [← Cert.Stdp.rate_fold]
  simp only [lidx_eq, ridx_eq]
  rfl

end Cert.ReferenceIdeal.RefValue

end
-- ==== Proof.lean ====
/-
  A Hebbian weight update, tiled: `new = clip(w + (lr / B) · postᵀ · pre, 0, 1)`, and `w` itself when `w` holds a NaN.

  The kernel walks the 8192×8192 weights in 8 × 8 tiles of 1024×1024; for each tile it multiplies the matching
  32×1024 tiles of `post` and `pre` along the batch axis of 32, scales the product by the single-precision word of
  `0.01 / 32`, adds the weights tile, clamps to `[0, 1]`, and keeps the old tile instead when a flag — computed
  once on the host from the whole weights and handed to every grid point as one integer word — is not zero.  The
  reference forms the whole 8192×8192 product, divides it by `32`, scales by the single-precision word of
  `0.01`, adds, clamps, and selects on the same flag.

  On the extended reals the two are one function of the three arrays (Proof/Spec.lean):
  * the tile's product at `(p, q)` is the whole product at `(1024 · (t / 8) + p, 1024 · (t % 8) + q)`, the same 32
    terms (Proof/KernelArray.lean);
  * the word of `0.01 / 32` is exactly the word of `0.01` divided by `32` — same significand, exponents five
    apart — so scaling by it is dividing by `32` and then scaling by the word of `0.01`, for every extended real,
    by commutativity and associativity of the product alone (Proof/Scale.lean): finiteness of the inputs is not used;
  * rounding the activities to bf16 before the product is the identity on the extended reals;
  * the flag is the same fold by `or` of the same entrywise comparison on both sides; the kernel widens it to a
    32-bit word and tests that word against zero, which gives the bit back (Proof/KernelValue.lean).

  The three frames: the kernel's two programs run under the pipeline's side condition on the prefetched table, which
  is `True` here (no index map reads the table); the reference's frame is its run with the result dropped.  The
  idealization rewrote nothing, so `preserves` is `True`.
-/
import proofs.«134060_j17274358464692_1_alg».proof.Defs
import proofs.«134060_j17274358464692_1_alg».proof.Proof.Gen.Kernel
import proofs.«134060_j17274358464692_1_alg».proof.Proof.Gen.Kernel.Skeleton
import proofs.«134060_j17274358464692_1_alg».proof.Proof.Gen.Kernel.Launch
import proofs.«134060_j17274358464692_1_alg».proof.Proof.Gen.Kernel.Points
import proofs.«134060_j17274358464692_1_alg».proof.Proof.Gen.Kernel.Frame
import proofs.«134060_j17274358464692_1_alg».proof.Proof.Gen.KernelIdeal
import proofs.«134060_j17274358464692_1_alg».proof.Proof.Gen.KernelIdeal.Skeleton
import proofs.«134060_j17274358464692_1_alg».proof.Proof.Gen.KernelIdeal.Launch
import proofs.«134060_j17274358464692_1_alg».proof.Proof.Gen.KernelIdeal.Points
import proofs.«134060_j17274358464692_1_alg».proof.Proof.Gen.KernelIdeal.Frame
import proofs.«134060_j17274358464692_1_alg».proof.Proof.Gen.ReferenceIdeal
import proofs.«134060_j17274358464692_1_alg».proof.Proof.Gen.Pre_finite_inputs
import proofs.«134060_j17274358464692_1_alg».proof.Proof.KernelArray
import proofs.«134060_j17274358464692_1_alg».proof.Proof.RefValue
import Idealize.ShloMosaic.Adequacy
import Idealize.ShloMosaic.Init

noncomputable section

namespace Cert.Proof

open Idealize.ShloMosaic Idealize.SL.Sem

/-- The kernel's program as printed runs, its arguments unchanged. -/
theorem frame_kernel : Cert.frame_Kernel (hKernel := Cert.Kernel.Gen.facts) (hPre_finite_inputs := Cert.Pre_finite_inputs.Gen.facts) :=
  fun m ρ _ => Cert.Kernel.Gen.frame m ρ trivial

/-- So does its idealization. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ trivial

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end with the result array at the updated weights of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.TileValue.run m ρ trivial, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v9_eq, Cert.ReferenceIdeal.RefValue.result_eq, (hagree c).1, (hagree c).2.1, (hagree c).2.2]
  obtain rfl : c = 0 := Subsingleton.elim _ _
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
